-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100000x8 : Shape := ⟨3, ![4, 100000, 8]⟩
abbrev S2x12800000 : Shape := ⟨2, ![2, 12800000]⟩
abbrev S12800000 : Shape := ⟨1, ![12800000]⟩
abbrev S4x100000x4 : Shape := ⟨3, ![4, 100000, 4]⟩
abbrev S4x100000x1 : Shape := ⟨3, ![4, 100000, 1]⟩
abbrev S_ : Shape := ⟨0, ![]⟩

class Facts : Prop where
  bcast_S_S4x100000x8 : S_.BroadcastsInDim S4x100000x8 (![] : Fin 0 → Fin S4x100000x8.rank)
  reducesTo_S4x100000x8_S_d0_1_2 : S4x100000x8.ReducesTo [0, 1, 2] S_
  h_S_ : 0 < S_.numel
  bcast_S_S12800000 : S_.BroadcastsInDim S12800000 (![] : Fin 0 → Fin S12800000.rank)
  reducesTo_S12800000_S_d0 : S12800000.ReducesTo [0] S_
  bcast_S_S4x100000x4 : S_.BroadcastsInDim S4x100000x4 (![] : Fin 0 → Fin S4x100000x4.rank)
  reducesTo_S4x100000x4_S_d0_1_2 : S4x100000x4.ReducesTo [0, 1, 2] S_
  bcast_S_S4x100000x1 : S_.BroadcastsInDim S4x100000x1 (![] : Fin 0 → Fin S4x100000x1.rank)
  reducesTo_S4x100000x1_S_d0_1_2 : S4x100000x1.ReducesTo [0, 1, 2] S_

variable [Facts]

def fn_part1 {F : FTy → Type} [FloatOps F] (main_arg5 : FVec F S4x100000x1 .f32) (main_v13 : IVec S_ 1) (main_v16 : IVec S4x100000x4 1) : IVec S_ 1 :=
  let main_c_5 : IVec S_ 1 := constantI S_ 1 1#1
  let main_v17 : IVec S_ 1 := (fun x v => Host.reduce IntOp.andi x v reducesTo_S4x100000x4_S_d0_1_2 h_S_) main_v16 main_c_5
  let main_v18 : IVec S_ 1 := andi main_v13 main_v17
  let main_v19 : FVec F S4x100000x1 .f32 := Host.absf main_arg5
  let main_cst_6 : FVec F S_ .f32 := constant S_ .f32 0x7F800000#32
  let main_v20 : FVec F S4x100000x1 .f32 := broadcastInDim S4x100000x1 ![] bcast_S_S4x100000x1 main_cst_6
  let main_v21 : IVec S4x100000x1 1 := cmpf .olt main_v19 main_v20
  let main_c_7 : IVec S_ 1 := constantI S_ 1 1#1
  let main_v22 : IVec S_ 1 := (fun x v => Host.reduce IntOp.andi x v reducesTo_S4x100000x1_S_d0_1_2 h_S_) main_v21 main_c_7
  let main_v23 : IVec S_ 1 := andi main_v18 main_v22
  main_v23

def fn {F : FTy → Type} [FloatOps F] (main_arg0 : FVec F S4x100000x8 .f32) (main_arg1 : FVec F S4x100000x8 .f32) (main_arg2 : IVec S2x12800000 32) (main_arg3 : FVec F S12800000 .f32) (main_arg4 : FVec F S4x100000x4 .f32) (main_arg5 : FVec F S4x100000x1 .f32) : IVec S_ 1 :=
  let main_v0 : FVec F S4x100000x8 .f32 := Host.absf main_arg0
  let main_cst : FVec F S_ .f32 := constant S_ .f32 0x7F800000#32
  let main_v1 : FVec F S4x100000x8 .f32 := broadcastInDim S4x100000x8 ![] bcast_S_S4x100000x8 main_cst
  let main_v2 : IVec S4x100000x8 1 := cmpf .olt main_v0 main_v1
  let main_c : IVec S_ 1 := constantI S_ 1 1#1
  let main_v3 : IVec S_ 1 := (fun x v => Host.reduce IntOp.andi x v reducesTo_S4x100000x8_S_d0_1_2 h_S_) main_v2 main_c
  let main_v4 : FVec F S4x100000x8 .f32 := Host.absf main_arg1
  let main_cst_0 : FVec F S_ .f32 := constant S_ .f32 0x7F800000#32
  let main_v5 : FVec F S4x100000x8 .f32 := broadcastInDim S4x100000x8 ![] bcast_S_S4x100000x8 main_cst_0
  let main_v6 : IVec S4x100000x8 1 := cmpf .olt main_v4 main_v5
  let main_c_1 : IVec S_ 1 := constantI S_ 1 1#1
  let main_v7 : IVec S_ 1 := (fun x v => Host.reduce IntOp.andi x v reducesTo_S4x100000x8_S_d0_1_2 h_S_) main_v6 main_c_1
  let main_v8 : IVec S_ 1 := andi main_v3 main_v7
  let main_v9 : FVec F S12800000 .f32 := Host.absf main_arg3
  let main_cst_2 : FVec F S_ .f32 := constant S_ .f32 0x7F800000#32
  let main_v10 : FVec F S12800000 .f32 := broadcastInDim S12800000 ![] bcast_S_S12800000 main_cst_2
  let main_v11 : IVec S12800000 1 := cmpf .olt main_v9 main_v10
  let main_c_3 : IVec S_ 1 := constantI S_ 1 1#1
  let main_v12 : IVec S_ 1 := (fun x v => Host.reduce IntOp.andi x v reducesTo_S12800000_S_d0 h_S_) main_v11 main_c_3
  let main_v13 : IVec S_ 1 := andi main_v8 main_v12
  let main_v14 : FVec F S4x100000x4 .f32 := Host.absf main_arg4
  let main_cst_4 : FVec F S_ .f32 := constant S_ .f32 0x7F800000#32
  let main_v15 : FVec F S4x100000x4 .f32 := broadcastInDim S4x100000x4 ![] bcast_S_S4x100000x4 main_cst_4
  let main_v16 : IVec S4x100000x4 1 := cmpf .olt main_v14 main_v15
  fn_part1 (F := F) main_arg5 main_v13 main_v16
-- ==== Kernel.lean ====
abbrev S4x100000x8 : Shape := ⟨3, ![4, 100000, 8]⟩
abbrev S2x12800000 : Shape := ⟨2, ![2, 12800000]⟩
abbrev S12800000 : Shape := ⟨1, ![12800000]⟩
abbrev S4x100000x4 : Shape := ⟨3, ![4, 100000, 4]⟩
abbrev S4x100000x1 : Shape := ⟨3, ![4, 100000, 1]⟩
abbrev S400000x8 : Shape := ⟨2, ![400000, 8]⟩
abbrev S1x12800000 : Shape := ⟨2, ![1, 12800000]⟩
abbrev S12800000x1 : Shape := ⟨2, ![12800000, 1]⟩
abbrev S_ : Shape := ⟨0, ![]⟩
abbrev S12800000x8 : Shape := ⟨2, ![12800000, 8]⟩
abbrev S4x8 : Shape := ⟨2, ![4, 8]⟩
abbrev S4x1 : Shape := ⟨2, ![4, 1]⟩
abbrev S4x1000x8 : Shape := ⟨3, ![4, 1000, 8]⟩
abbrev S4x1000x1 : Shape := ⟨3, ![4, 1000, 1]⟩

abbrev nBuf : Space → Nat
  | .hbm => 60
  | .vmem => 11
  | .smem => 0
  | _ => 0

abbrev bufTy : (tb : Table) → Fin (tcTables nBuf tb) → BufTy
  | .hbm, ⟨0, _⟩ => ⟨S4x100000x8, .f32⟩
  | .hbm, ⟨1, _⟩ => ⟨S4x100000x8, .f32⟩
  | .hbm, ⟨2, _⟩ => ⟨S2x12800000, .i32⟩
  | .hbm, ⟨3, _⟩ => ⟨S12800000, .f32⟩
  | .hbm, ⟨4, _⟩ => ⟨S4x100000x4, .f32⟩
  | .hbm, ⟨5, _⟩ => ⟨S4x100000x1, .f32⟩
  | .hbm, ⟨6, _⟩ => ⟨S400000x8, .f32⟩
  | .hbm, ⟨7, _⟩ => ⟨S1x12800000, .i32⟩
  | .hbm, ⟨8, _⟩ => ⟨S12800000, .i32⟩
  | .hbm, ⟨9, _⟩ => ⟨S1x12800000, .i32⟩
  | .hbm, ⟨10, _⟩ => ⟨S12800000, .i32⟩
  | .hbm, ⟨11, _⟩ => ⟨S12800000x1, .f32⟩
  | .hbm, ⟨12, _⟩ => ⟨S_, .i32⟩
  | .hbm, ⟨13, _⟩ => ⟨S12800000, .i32⟩
  | .hbm, ⟨14, _⟩ => ⟨S12800000, .i1⟩
  | .hbm, ⟨15, _⟩ => ⟨S_, .i32⟩
  | .hbm, ⟨16, _⟩ => ⟨S12800000, .i32⟩
  | .hbm, ⟨17, _⟩ => ⟨S12800000, .i32⟩
  | .hbm, ⟨18, _⟩ => ⟨S12800000, .i32⟩
  | .hbm, ⟨19, _⟩ => ⟨S12800000x1, .i32⟩
  | .hbm, ⟨20, _⟩ => ⟨S12800000x8, .f32⟩
  | .hbm, ⟨21, _⟩ => ⟨S12800000x8, .f32⟩
  | .hbm, ⟨22, _⟩ => ⟨S12800000x8, .f32⟩
  | .hbm, ⟨23, _⟩ => ⟨S_, .f32⟩
  | .hbm, ⟨24, _⟩ => ⟨S400000x8, .f32⟩
  | .hbm, ⟨25, _⟩ => ⟨S12800000x1, .i32⟩
  | .hbm, ⟨26, _⟩ => ⟨S400000x8, .f32⟩
  | .hbm, ⟨27, _⟩ => ⟨S4x100000x8, .f32⟩
  | .hbm, ⟨28, _⟩ => ⟨S4x8, .f32⟩
  | .hbm, ⟨29, _⟩ => ⟨S4x8, .f32⟩
  | .hbm, ⟨30, _⟩ => ⟨S4x1, .f32⟩
  | .hbm, ⟨31, _⟩ => ⟨S_, .f32⟩
  | .hbm, ⟨32, _⟩ => ⟨S4x8, .f32⟩
  | .hbm, ⟨33, _⟩ => ⟨S4x8, .f32⟩
  | .hbm, ⟨34, _⟩ => ⟨S4x8, .f32⟩
  | .hbm, ⟨35, _⟩ => ⟨S_, .f32⟩
  | .hbm, ⟨36, _⟩ => ⟨S4x8, .f32⟩
  | .hbm, ⟨37, _⟩ => ⟨S4x8, .f32⟩
  | .hbm, ⟨38, _⟩ => ⟨S4x8, .f32⟩
  | .hbm, ⟨39, _⟩ => ⟨S4x8, .f32⟩
  | .hbm, ⟨40, _⟩ => ⟨S4x8, .f32⟩
  | .hbm, ⟨41, _⟩ => ⟨S4x8, .f32⟩
  | .hbm, ⟨42, _⟩ => ⟨S4x8, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4x8, .f32⟩
  | .hbm, ⟨48, _⟩ => ⟨S4x8, .f32⟩
  | .hbm, ⟨49, _⟩ => ⟨S4x8, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S4x1000x8, .f32⟩
  | .local _ .vmem, ⟨1, _⟩ => ⟨S4x1000x8, .f32⟩
  | .local _ .vmem, ⟨2, _⟩ => ⟨S4x1000x8, .f32⟩
  | .local _ .vmem, ⟨3, _⟩ => ⟨S4x1000x8, .f32⟩
  | .local _ .vmem, ⟨4, _⟩ => ⟨S4x1000x8, .f32⟩
  | .local _ .vmem, ⟨5, _⟩ => ⟨S4x1000x8, .f32⟩
  | .local _ .vmem, ⟨6, _⟩ => ⟨S4x1000x1, .f32⟩
  | .local _ .vmem, ⟨7, _⟩ => ⟨S4x1000x1, .f32⟩
  | .local _ .vmem, ⟨8, _⟩ => ⟨S4x8, .f32⟩
  | .local _ .vmem, ⟨9, _⟩ => ⟨S4x8, .f32⟩
  | .local _ .vmem, ⟨10, _⟩ => ⟨S4x1, .f32⟩
  | _, _ => ⟨S4x100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S4x100000x8_S400000x8 : S4x100000x8.ShapeCasts S400000x8
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  bcast_S12800000_S12800000x1_0 : S12800000.BroadcastsInDim S12800000x1 (![0] : Fin 1 → Fin S12800000x1.rank)
  bcast_S_S12800000 : S_.BroadcastsInDim S12800000 (![] : Fin 0 → Fin S12800000.rank)
  bcast_S12800000x1_S12800000x8_0_1 : S12800000x1.BroadcastsInDim S12800000x8 (![0, 1] : Fin 2 → Fin S12800000x8.rank)
  bcast_S_S400000x8 : S_.BroadcastsInDim S400000x8 (![] : Fin 0 → Fin S400000x8.rank)
  shapeCasts_S400000x8_S4x100000x8 : S400000x8.ShapeCasts S4x100000x8
  inb_S4x8_S4x8_0_0 : ∀ a, (![0, 0] : Fin 2 → Nat) a + S4x8.size a ≤ S4x8.size a
  h_S4x8 : 0 < S4x8.numel
  inb_S4x1_S4x1_0_0 : ∀ a, (![0, 0] : Fin 2 → Nat) a + S4x1.size a ≤ S4x1.size a
  h_S4x1 : 0 < S4x1.numel
  inb_S4x1000x8_S4x1000x8_0_0_0 : ∀ a, (![0, 0, 0] : Fin 3 → Nat) a + S4x1000x8.size a ≤ S4x1000x8.size a
  h_S4x1000x8 : 0 < S4x1000x8.numel
  shapeCasts_S4x1000x8_S4x1000x8 : S4x1000x8.ShapeCasts S4x1000x8
  inb_S4x1000x1_S4x1000x1_0_0_0 : ∀ a, (![0, 0, 0] : Fin 3 → Nat) a + S4x1000x1.size a ≤ S4x1000x1.size a
  h_S4x1000x1 : 0 < S4x1000x1.numel
  broadcasts_S4x1000x1_S4x1000x8 : S4x1000x1.Broadcasts S4x1000x8
  shapeCasts_S4x8_S4x8 : S4x8.ShapeCasts S4x8
  reduces_S4x1000x8_S4x8 : S4x1000x8.Reduces [1] S4x8
  shapeCasts_S4x1_S4x1 : S4x1.ShapeCasts S4x1
  reduces_S4x1000x1_S4x1 : S4x1000x1.Reduces [1] S4x1
  bcast_S_S4x8 : S_.BroadcastsInDim S4x8 (![] : Fin 0 → Fin S4x8.rank)
  bcast_S4x1_S4x8_0_1 : S4x1.BroadcastsInDim S4x8 (![0, 1] : Fin 2 → Fin S4x8.rank)
  reducesTo_S4x8_S_d0_1 : S4x8.ReducesTo [0, 1] S_
  h_S_ : 0 < S_.numel
  gather_S400000x8_S12800000x1_S12800000x8_1_0_n_n_0_1_18_wf : GatherDims.WF S400000x8 S12800000x1 S12800000x8 [1] [0] [] [0] [] 1 ![1, 8]
  scatter_S400000x8_S12800000x1_S12800000x8_1_0_0_1_wf : ScatterDims.WF S400000x8 S12800000x1 S12800000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1000x8.size a ≤ S4x100000x8.size a
  hwx0_0 : ∀ i : grid0.Coords, EltTy.bits .f32 = 32 ∨ (Rect.block (s := S4x100000x8) S4x1000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1000x8.size a ≤ S4x100000x8.size a
  hwx0_1 : ∀ i : grid0.Coords, EltTy.bits .f32 = 32 ∨ (Rect.block (s := S4x100000x8) S4x1000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1000x8.size a ≤ S4x100000x8.size a
  hwx0_2 : ∀ i : grid0.Coords, EltTy.bits .f32 = 32 ∨ (Rect.block (s := S4x100000x8) S4x1000x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1000x1.size a ≤ S4x100000x1.size a
  hwx0_3 : ∀ i : grid0.Coords, EltTy.bits .f32 = 32 ∨ (Rect.block (s := S4x100000x1) S4x1000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x8.size a ≤ S4x8.size a
  hwx0_4 : ∀ i : grid0.Coords, EltTy.bits .f32 = 32 ∨ (Rect.block (s := S4x8) S4x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x8.size a ≤ S4x8.size a
  hwx0_5 : ∀ i : grid0.Coords, EltTy.bits .f32 = 32 ∨ (Rect.block (s := S4x8) S4x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1.size a ≤ S4x1.size a
  hwx0_6 : ∀ i : grid0.Coords, EltTy.bits .f32 = 32 ∨ (Rect.block (s := S4x1) S4x1.size (cc0_transform_6 i) (hinb0_6 i)).WholeWords (EltTy.packing .f32)

variable [Facts₀]

def gather_S400000x8_S12800000x1_S12800000x8_1_0_n_n_0_1_18 : GatherDims S400000x8 S12800000x1 S12800000x8 where
  offsetDims := [1]
  collapsedSliceDims := [0]
  operandBatchingDims := []
  startIndicesBatchingDims := []
  startIndexMap := [0]
  indexVectorDim := 1
  sliceSizes := ![1, 8]
  wf := gather_S400000x8_S12800000x1_S12800000x8_1_0_n_n_0_1_18_wf
def scatter_S400000x8_S12800000x1_S12800000x8_1_0_0_1 : ScatterDims S400000x8 S12800000x1 S12800000x8 where
  updateWindowDims := [1]
  insertedWindowDims := [0]
  scatterDimsToOperandDims := [0]
  indexVectorDim := 1
  wf := scatter_S400000x8_S12800000x1_S12800000x8_1_0_0_1_wf

abbrev win0_0 : Pipeline.Window sig grid0 :=
  Pipeline.Window.ofSpec (Memref.whole main_v18) S4x1000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x1000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x1000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S4x1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S4x8.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S4x8.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_2) S4x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x100000x8 : Shape := ⟨3, ![4, 100000, 8]⟩
abbrev S2x12800000 : Shape := ⟨2, ![2, 12800000]⟩
abbrev S12800000 : Shape := ⟨1, ![12800000]⟩
abbrev S4x100000x4 : Shape := ⟨3, ![4, 100000, 4]⟩
abbrev S4x100000x1 : Shape := ⟨3, ![4, 100000, 1]⟩
abbrev S_ : Shape := ⟨0, ![]⟩
abbrev S4x1 : Shape := ⟨2, ![4, 1]⟩
abbrev S400000x8 : Shape := ⟨2, ![400000, 8]⟩
abbrev S1x12800000 : Shape := ⟨2, ![1, 12800000]⟩
abbrev S12800000x1 : Shape := ⟨2, ![12800000, 1]⟩
abbrev S12800000x8 : Shape := ⟨2, ![12800000, 8]⟩
abbrev S4x8 : Shape := ⟨2, ![4, 8]⟩

abbrev nBuf : Space → Nat
  | .hbm => 67
  | .vmem => 0
  | .smem => 0
  | _ => 0

abbrev bufTy : (tb : Table) → Fin (tcTables nBuf tb) → BufTy
  | .hbm, ⟨0, _⟩ => ⟨S4x100000x8, .f32⟩
  | .hbm, ⟨1, _⟩ => ⟨S4x100000x8, .f32⟩
  | .hbm, ⟨2, _⟩ => ⟨S2x12800000, .i32⟩
  | .hbm, ⟨3, _⟩ => ⟨S12800000, .f32⟩
  | .hbm, ⟨4, _⟩ => ⟨S4x100000x4, .f32⟩
  | .hbm, ⟨5, _⟩ => ⟨S4x100000x1, .f32⟩
  | .hbm, ⟨6, _⟩ => ⟨S4x100000x8, .f32⟩
  | .hbm, ⟨7, _⟩ => ⟨S4x100000x8, .f32⟩
  | .hbm, ⟨8, _⟩ => ⟨S_, .f32⟩
  | .hbm, ⟨9, _⟩ => ⟨S4x1, .f32⟩
  | .hbm, ⟨10, _⟩ => ⟨S400000x8, .f32⟩
  | .hbm, ⟨11, _⟩ => ⟨S1x12800000, .i32⟩
  | .hbm, ⟨12, _⟩ => ⟨S12800000, .i32⟩
  | .hbm, ⟨13, _⟩ => ⟨S1x12800000, .i32⟩
  | .hbm, ⟨14, _⟩ => ⟨S12800000, .i32⟩
  | .hbm, ⟨15, _⟩ => ⟨S12800000x1, .f32⟩
  | .hbm, ⟨16, _⟩ => ⟨S_, .i32⟩
  | .hbm, ⟨17, _⟩ => ⟨S12800000, .i32⟩
  | .hbm, ⟨18, _⟩ => ⟨S12800000, .i1⟩
  | .hbm, ⟨19, _⟩ => ⟨S_, .i32⟩
  | .hbm, ⟨20, _⟩ => ⟨S12800000, .i32⟩
  | .hbm, ⟨21, _⟩ => ⟨S12800000, .i32⟩
  | .hbm, ⟨22, _⟩ => ⟨S12800000, .i32⟩
  | .hbm, ⟨23, _⟩ => ⟨S12800000x1, .i32⟩
  | .hbm, ⟨24, _⟩ => ⟨S12800000x8, .f32⟩
  | .hbm, ⟨25, _⟩ => ⟨S12800000x8, .f32⟩
  | .hbm, ⟨26, _⟩ => ⟨S12800000x8, .f32⟩
  | .hbm, ⟨27, _⟩ => ⟨S_, .f32⟩
  | .hbm, ⟨28, _⟩ => ⟨S400000x8, .f32⟩
  | .hbm, ⟨29, _⟩ => ⟨S12800000x1, .i32⟩
  | .hbm, ⟨30, _⟩ => ⟨S400000x8, .f32⟩
  | .hbm, ⟨31, _⟩ => ⟨S4x100000x8, .f32⟩
  | .hbm, ⟨32, _⟩ => ⟨S4x100000x8, .f32⟩
  | .hbm, ⟨33, _⟩ => ⟨S_, .f32⟩
  | .hbm, ⟨34, _⟩ => ⟨S4x8, .f32⟩
  | .hbm, ⟨35, _⟩ => ⟨S4x100000x8, .f32⟩
  | .hbm, ⟨36, _⟩ => ⟨S_, .f32⟩
  | .hbm, ⟨37, _⟩ => ⟨S4x8, .f32⟩
  | .hbm, ⟨38, _⟩ => ⟨S_, .f32⟩
  | .hbm, ⟨39, _⟩ => ⟨S4x8, .f32⟩
  | .hbm, ⟨40, _⟩ => ⟨S4x8, .f32⟩
  | .hbm, ⟨41, _⟩ => ⟨S4x8, .f32⟩
  | .hbm, ⟨42, _⟩ => ⟨S_, .f32⟩
  | .hbm, ⟨43, _⟩ => ⟨S4x8, .f32⟩
  | .hbm, ⟨44, _⟩ => ⟨S4x8, .f32⟩
  | .hbm, ⟨45, _⟩ => ⟨S4x8, .f32⟩
  | .hbm, ⟨46, _⟩ => ⟨S4x8, .f32⟩
  | .hbm, ⟨47, _⟩ => ⟨S4x8, .f32⟩
  | .hbm, ⟨48, _⟩ => ⟨S4x8, .f32⟩
  | .hbm, ⟨49, _⟩ => ⟨S4x8, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4x8, .f32⟩
  | .hbm, ⟨55, _⟩ => ⟨S4x8, .f32⟩
  | .hbm, ⟨56, _⟩ => ⟨S4x8, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S4x100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  bcast_S4x100000x1_S4x100000x8_0_1_2 : S4x100000x1.BroadcastsInDim S4x100000x8 (![0, 1, 2] : Fin 3 → Fin S4x100000x8.rank)
  reducesTo_S4x100000x1_S4x1_d1 : S4x100000x1.ReducesTo [1] S4x1
  h_S_ : 0 < S_.numel
  shapeCasts_S4x100000x8_S400000x8 : S4x100000x8.ShapeCasts S400000x8
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  bcast_S12800000_S12800000x1_0 : S12800000.BroadcastsInDim S12800000x1 (![0] : Fin 1 → Fin S12800000x1.rank)
  bcast_S_S12800000 : S_.BroadcastsInDim S12800000 (![] : Fin 0 → Fin S12800000.rank)
  bcast_S12800000x1_S12800000x8_0_1 : S12800000x1.BroadcastsInDim S12800000x8 (![0, 1] : Fin 2 → Fin S12800000x8.rank)
  bcast_S_S400000x8 : S_.BroadcastsInDim S400000x8 (![] : Fin 0 → Fin S400000x8.rank)
  shapeCasts_S400000x8_S4x100000x8 : S400000x8.ShapeCasts S4x100000x8
  reducesTo_S4x100000x8_S4x8_d1 : S4x100000x8.ReducesTo [1] S4x8
  bcast_S_S4x8 : S_.BroadcastsInDim S4x8 (![] : Fin 0 → Fin S4x8.rank)
  bcast_S4x1_S4x8_0_1 : S4x1.BroadcastsInDim S4x8 (![0, 1] : Fin 2 → Fin S4x8.rank)
  reducesTo_S4x8_S_d0_1 : S4x8.ReducesTo [0, 1] S_
  gather_S400000x8_S12800000x1_S12800000x8_1_0_n_n_0_1_18_wf : GatherDims.WF S400000x8 S12800000x1 S12800000x8 [1] [0] [] [0] [] 1 ![1, 8]
  scatter_S400000x8_S12800000x1_S12800000x8_1_0_0_1_wf : ScatterDims.WF S400000x8 S12800000x1 S12800000x8 [1] [0] [0] 1

variable [Facts₀]

def gather_S400000x8_S12800000x1_S12800000x8_1_0_n_n_0_1_18 : GatherDims S400000x8 S12800000x1 S12800000x8 where
  offsetDims := [1]
  collapsedSliceDims := [0]
  operandBatchingDims := []
  startIndicesBatchingDims := []
  startIndexMap := [0]
  indexVectorDim := 1
  sliceSizes := ![1, 8]
  wf := gather_S400000x8_S12800000x1_S12800000x8_1_0_n_n_0_1_18_wf
def scatter_S400000x8_S12800000x1_S12800000x8_1_0_0_1 : ScatterDims S400000x8 S12800000x1 S12800000x8 where
  updateWindowDims := [1]
  insertedWindowDims := [0]
  scatterDimsToOperandDims := [0]
  indexVectorDim := 1
  wf := scatter_S400000x8_S12800000x1_S12800000x8_1_0_0_1_wf

class Facts : Prop extends Facts₀ where

variable [Facts]
-- ==== Proof.Pieces.lean ====
/-
  What one grid step leaves in the three accumulator blocks, as values.

  The body keeps three running blocks across the grid: E and L of shape [4, 8] and W of shape [4, 1]. At every
  step it overwrites each of them by ONE store covering the whole block, whose value is a pure function of the
  step's four input tiles and of what the block held when the step began:
      E  ↦  E + Σ_r a·x        L  ↦  L + Σ_r (w·f)·x        W  ↦  W + Σ_r w
  (a, x, f tiles of shape [4, 1000, 8], w of shape [4, 1000, 1], the sums over the 1000 rows of the tile). At the
  first step the three blocks are first overwritten by zero blocks, and the values just stored are what the
  accumulation then reads back; so the first step leaves the same three expressions with the zero block in place
  of the old contents. These six equations (three blocks, two kinds of step) are stated for any float
  interpretation; nothing here depends on the arithmetic.
-/
import proofs.«118738_j56916906606979_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a1 : Memref sig .tc .vmem S4x1000x8 .f32) (h1 : a1.IsWhole) (a2 : Memref sig .tc .vmem S4x1000x8 .f32) (h2 : a2.IsWhole)
  (a3 : Memref sig .tc .vmem S4x1000x8 .f32) (h3 : a3.IsWhole) (a4 : Memref sig .tc .vmem S4x1000x1 .f32) (h4 : a4.IsWhole)
  (a5 : Memref sig .tc .vmem S4x8 .f32) (h5 : a5.IsWhole) (a6 : Memref sig .tc .vmem S4x8 .f32) (h6 : a6.IsWhole)
  (a7 : Memref sig .tc .vmem S4x1 .f32) (h7 : a7.IsWhole)
  (x0 x1 x2 : Vec F S4x1000x8 .f32) (x3 : Vec F S4x1000x1 .f32)

/-! ## A later step: each block is its old contents plus the tile's sum -/

section later
variable (hc : ¬cond0_0 i) (xo4 xo5 : Vec F S4x8 .f32) (xo6 : Vec F S4x1 .f32)

/-- E after a later step: the one covering store's value, its loads reading the whole buffers. -/
theorem later_E : out0_B_4 c i a1 h1 a2 h2 a3 h3 a4 h4 a5 h5 a6 h6 a7 h7 hc x0 x1 x2 x3 xo4 xo5 xo6 = k0_pay4 x0 x1 xo4 := by
  unfold out0_B_4
  rw [View.read_writes_eq_canon _ _ _ (cover0_B_4 c i a1 h1 a2 h2 a3 h3 a4 h4 a5 h5 a6 h6 a7 h7 hc x0 x1 x2 x3 xo4 xo5 xo6)]
  unfold kernelRun0_B
  dsimp only
  rw [View.canon_unit_zero hz2]
  simp only [View.readAt_eq_ld, h1.read_unread, h2.read_unread, h5.read_unread, View.ld_unit_zero (S := S4x1000x8) hz3,
    View.ld_unit_zero (S := S4x8) hz2]

/-- L after a later step. -/
theorem later_L : out0_B_5 c i a1 h1 a2 h2 a3 h3 a4 h4 a5 h5 a6 h6 a7 h7 hc x0 x1 x2 x3 xo4 xo5 xo6 = k0_pay5 x1 x2 x3 xo5 := by
  unfold out0_B_5
  rw [View.read_writes_eq_canon _ _ _ (cover0_B_5 c i a1 h1 a2 h2 a3 h3 a4 h4 a5 h5 a6 h6 a7 h7 hc x0 x1 x2 x3 xo4 xo5 xo6)]
  unfold kernelRun0_B
  dsimp only
  rw [View.canon_unit_zero hz2]
  simp only [View.readAt_eq_ld, h2.read_unread, h3.read_unread, h4.read_unread, h6.read_unread,
    View.ld_unit_zero (S := S4x1000x8) hz3, View.ld_unit_zero (S := S4x1000x1) hz3, View.ld_unit_zero (S := S4x8) hz2]

/-- W after a later step. -/
theorem later_W : out0_B_6 c i a1 h1 a2 h2 a3 h3 a4 h4 a5 h5 a6 h6 a7 h7 hc x0 x1 x2 x3 xo4 xo5 xo6 = k0_pay6 x3 xo6 := by
  unfold out0_B_6
  rw [View.read_writes_eq_canon _ _ _ (cover0_B_6 c i a1 h1 a2 h2 a3 h3 a4 h4 a5 h5 a6 h6 a7 h7 hc x0 x1 x2 x3 xo4 xo5 xo6)]
  unfold kernelRun0_B
  dsimp only
  sl_unfold_words
  rw [View.canon_unit_zero hz2]
  simp only [View.readAt_eq_ld, h4.read_unread, h7.read_unread, View.ld_unit_zero (S := S4x1000x1) hz3,
    View.ld_unit_zero (S := S4x1) hz2]

end later

/-! ## The first step: the same, over the zero block just stored -/

section first
variable (hc : cond0_0 i)

/-- E after the first step: the zero block is stored, read back, and the tile's sum added to it. -/
theorem first_E : out0_A_4 c i a1 h1 a2 h2 a3 h3 a4 h4 a5 h5 a6 h6 a7 h7 hc x0 x1 x2 x3 = k0_pay4 x0 x1 (k0_pay1 (F := F)) := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_cons_unit_zero (S := S4x8) hz2, View.readCov_unit_zero (S := S4x8) _ hz2]
  simp only [View.readAt_eq_ld, h1.read_unread, h2.read_unread, View.ld_unit_zero (S := S4x1000x8) hz3]

/-- L after the first step. -/
theorem first_L : out0_A_5 c i a1 h1 a2 h2 a3 h3 a4 h4 a5 h5 a6 h6 a7 h7 hc x0 x1 x2 x3 = k0_pay5 x1 x2 x3 (k0_pay2 (F := F)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S4x8) hz2, View.readCov_unit_zero (S := S4x8) _ hz2]
  simp only [View.readAt_eq_ld, h2.read_unread, h3.read_unread, h4.read_unread, View.ld_unit_zero (S := S4x1000x8) hz3,
    View.ld_unit_zero (S := S4x1000x1) hz3]

/-- W after the first step. -/
theorem first_W : out0_A_6 c i a1 h1 a2 h2 a3 h3 a4 h4 a5 h5 a6 h6 a7 h7 hc x0 x1 x2 x3 = k0_pay6 x3 (k0_pay3 (F := F)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S4x1) hz2, View.readCov_unit_zero (S := S4x1) _ hz2]
  simp only [View.readAt_eq_ld, h4.read_unread, View.ld_unit_zero (S := S4x1000x1) hz3]

end first

end Cert.KernelIdeal.Acc

end
-- ==== Proof.StepValue.lean ====
/-
  One grid step's three updates, read entry by entry over the extended reals.

  With a, x, f the step's tiles of shape [4, 1000, 8] and w its tile of shape [4, 1000, 1], and E, L, W the
  blocks' contents when the step begins, the step leaves at batch b and column s
      E(b, s) + Σ_{r < 1000} a(b, r, s) · x(b, r, s)
      L(b, s) + Σ_{r < 1000} (w(b, r, 0) · f(b, r, s)) · x(b, r, s)
      W(b, 0) + Σ_{r < 1000} w(b, r, 0).
  Each is the pointwise reading of the update: products and sums act entry by entry, a broadcast of w along the
  last axis reads column 0, a shape-preserving cast is the identity, and the lane reduction over axis 1 from the
  additive neutral is the finite sum over that axis's 1000 coordinates.
-/
import proofs.«118738_j56916906606979_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Acc

open Cert.KernelIdeal Cert.KernelIdeal.Gen

/-- Over batch b and column s, the index the reduction over axis 1 inserts at row r is (b, r, s). -/
theorem lift8 (b : Fin 4) (s : Fin 8) (r : Fin 1000) :
    reduces_S4x1000x8_S4x8.lift (ix2 b s) r = ix3 b r s :=
  funext fun a => Fin.ext (by match a with | ⟨0, _⟩ => rfl | ⟨1, _⟩ => rfl | ⟨2, _⟩ => rfl)

/-- The same for the one-column tile. -/
theorem lift1 (b : Fin 4) (z : Fin 1) (r : Fin 1000) :
    reduces_S4x1000x1_S4x1.lift (ix2 b z) r = ix3 b r z :=
  funext fun a => Fin.ext (by match a with | ⟨0, _⟩ => rfl | ⟨1, _⟩ => rfl | ⟨2, _⟩ => rfl)

/-- A one-column tile broadcast along the last axis reads its column 0. -/
theorem bcast_col (w : Vec Ideal S4x1000x1 .f32) (b : Fin 4) (r : Fin 1000) (s : Fin 8) :
    broadcastTo S4x1000x8 w broadcasts_S4x1000x1_S4x1000x8 (ix3 b r s) = w (ix3 b r (0 : Fin 1)) :=
  broadcastTo_apply w broadcasts_S4x1000x1_S4x1000x8 (ix3 b r s) (ix3 b r (0 : Fin 1)) fun a => match a with
    | ⟨0, _⟩ => by show b.val = if (4 : Nat) = 1 then 0 else b.val; rw [if_neg (by decide)]
    | ⟨1, _⟩ => by show r.val = if (1000 : Nat) = 1 then 0 else r.val; rw [if_neg (by decide)]
    | ⟨2, _⟩ => by show 0 = if (1 : Nat) = 1 then 0 else s.val; rw [if_pos rfl]

/-- E's update at (b, s). -/
theorem step_E (a x : Vec Ideal S4x1000x8 .f32) (E : Vec Ideal S4x8 .f32) (b : Fin 4) (s : Fin 8) :
    k0_pay4 (F := Ideal) a x E (ix2 b s) = E (ix2 b s) + ∑ r : Fin 1000, a (ix3 b r s) * x (ix3 b r s) := by
  unfold k0_pay4
  refine (addf_apply _ _ _).trans ?_
  refine congrArg₂ (· + ·) (congrFun (shapeCast_self E _) _) ?_
  refine (Ideal.multiReduction_add_single _ _ reduces_S4x1000x8_S4x8 _ _ (ix2 b s)).trans ?_
  refine Finset.sum_congr rfl fun (r : Fin 1000) _ => ?_
  refine (mulf_apply _ _ _).trans ?_
  exact congrArg₂ (· * ·) ((congrFun (shapeCast_self a _) _).trans (congrArg a (lift8 b s r))) (congrArg x (lift8 b s r))

/-- L's update at (b, s). -/
theorem step_L (x f : Vec Ideal S4x1000x8 .f32) (w : Vec Ideal S4x1000x1 .f32) (L : Vec Ideal S4x8 .f32) (b : Fin 4) (s : Fin 8) :
    k0_pay5 (F := Ideal) x f w L (ix2 b s)
      = L (ix2 b s) + ∑ r : Fin 1000, (w (ix3 b r (0 : Fin 1)) * f (ix3 b r s)) * x (ix3 b r s) := by
  unfold k0_pay5
  refine (addf_apply _ _ _).trans ?_
  refine congrArg₂ (· + ·) (congrFun (shapeCast_self L _) _) ?_
  refine (Ideal.multiReduction_add_single _ _ reduces_S4x1000x8_S4x8 _ _ (ix2 b s)).trans ?_
  refine Finset.sum_congr rfl fun (r : Fin 1000) _ => ?_
  refine (mulf_apply _ _ _).trans ?_
  refine congrArg₂ (· * ·) ?_ (congrArg x (lift8 b s r))
  refine (mulf_apply _ _ _).trans ?_
  exact congrArg₂ (· * ·) ((congrArg _ (lift8 b s r)).trans (bcast_col w b r s)) (congrArg f (lift8 b s r))

/-- W's update at (b, 0). -/
theorem step_W (w : Vec Ideal S4x1000x1 .f32) (W : Vec Ideal S4x1 .f32) (b : Fin 4) (z : Fin 1) :
    k0_pay6 (F := Ideal) w W (ix2 b z) = W (ix2 b z) + ∑ r : Fin 1000, w (ix3 b r z) := by
  unfold k0_pay6
  refine (addf_apply _ _ _).trans ?_
  refine congrArg₂ (· + ·) (congrFun (shapeCast_self W _) _) ?_
  refine (Ideal.multiReduction_add_single _ _ reduces_S4x1000x1_S4x1 _ _ (ix2 b z)).trans ?_
  refine Finset.sum_congr rfl fun (r : Fin 1000) _ => ?_
  exact congrArg w (lift1 b z r)

/-- The zero blocks the first step stores are zero at every entry. -/
theorem zero_E (j : S4x8.Idx) : k0_pay1 (F := Ideal) j = 0 := Ideal.ofBits_zero_f32
theorem zero_L (j : S4x8.Idx) : k0_pay2 (F := Ideal) j = 0 := Ideal.ofBits_zero_f32
theorem zero_W (j : S4x1.Idx) : k0_pay3 (F := Ideal) j = 0 := Ideal.ofBits_zero_f32

end Cert.KernelIdeal.Acc

end
-- ==== Proof.LibTileSum.lean ====
/-
  A sum over the first B·(n+1) naturals, taken B at a time.

  In any commutative additive monoid (the extended reals with their addition are one), the sum of g over
  0 … B(n+1) − 1 is the sum over 0 … Bn − 1 followed by the B terms g(Bn), …, g(Bn + B − 1): the rows of tile n
  come right after the rows of the tiles before it. Only associativity of the sum is used, so no term needs
  to be finite.
-/
import Mathlib.Algebra.BigOperators.Fin

namespace TileSum

open Finset

variable {M : Type*} [AddCommMonoid M]

/-- Rows 0 … B(n+1) − 1 are rows 0 … Bn − 1 followed by the B rows of tile n. -/
theorem range_succ_tile (g : ℕ → M) (B n : ℕ) :
    ∑ k ∈ range (B * (n + 1)), g k = ∑ k ∈ range (B * n), g k + ∑ r : Fin B, g (B * n + r.val) := by
  rw [Nat.mul_succ, sum_range_add, Fin.sum_univ_eq_sum_range (fun r => g (B * n + r)) B]

/-- The rows of tile 0 alone. -/
theorem range_first_tile (g : ℕ → M) (B : ℕ) :
    ∑ k ∈ range (B * (0 + 1)), g k = ∑ r : Fin B, g (B * 0 + r.val) := by
  rw [range_succ_tile, Nat.mul_zero, range_zero, sum_empty, zero_add]

/-- All N rows, as a sum over the finite type of row numbers. -/
theorem range_eq_univ (g : ℕ → M) (N : ℕ) : ∑ k ∈ range N, g k = ∑ k : Fin N, g k.val :=
  (Fin.sum_univ_eq_sum_range g N).symm

end TileSum
-- ==== Proof.Running.lean ====
/-
  The three accumulators after step n, in closed form.

  Write A for the array the first window tiles (the sparse product, shape [4, 100000, 8]), X and R for the two
  argument arrays of that shape the second and third windows tile, and M for the [4, 100000, 1] array the fourth
  tiles. Tile t of each is its rows 1000·t … 1000·t + 999. After step n the blocks hold, at batch b and column s,
      E_n(b, s) = Σ_{k < 1000(n+1)} A(b, k, s) · X(b, k, s)
      L_n(b, s) = Σ_{k < 1000(n+1)} (M(b, k, 0) · R(b, k, s)) · X(b, k, s)
      W_n(b, 0) = Σ_{k < 1000(n+1)} M(b, k, 0),
  the sums in the extended reals. By induction on n: step 0 starts from the zero block (0 + y = y) and adds tile
  0's rows; step n + 1 adds tile n + 1's rows to E_n, L_n, W_n, and rows 0 … 1000(n+1) − 1 followed by the 1000
  rows of tile n + 1 are rows 0 … 1000(n+2) − 1. Nothing is reordered, so no entry needs to be finite.
-/
import proofs.«118738_j56916906606979_2_alg».proof.Proof.Pieces
import proofs.«118738_j56916906606979_2_alg».proof.Proof.StepValue
import proofs.«118738_j56916906606979_2_alg».proof.Proof.LibTileSum

noncomputable section

open Idealize.ShloMosaic Idealize.ShloMosaic.TcCoe Idealize.SL.Sem Idealize.ShloMosaic.ValueIdx

namespace Cert.KernelIdeal.Acc

open Cert.KernelIdeal Cert.KernelIdeal.Gen

/-- Row n of batch b at column s in an array of 100000 rows (n read modulo 100000, so that every natural names a row). -/
abbrev rowIx {C : ℕ} (b : Fin 4) (n : ℕ) (s : Fin C) : (⟨3, ![4, 100000, C]⟩ : Shape).Idx :=
  ix3 b (⟨n % 100000, Nat.mod_lt _ (by decide)⟩ : Fin 100000) s

/-- At step t every input window sits at block (0, t, 0). -/
theorem tile_origin : ∀ t : Fin cfg0.N,
    (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0) :=
  (by decide +kernel : ∀ t : Fin grid0.N, _)

section tiles
variable {F : FTy → Type} [FloatOps F] (m : (ℓ : Loc nD τ sig) → Buf (Elt F) ℓ)

/-- The four arrays the input windows tile, as the region finds them, and their tiles at step t. -/
abbrev arrA (c : Dev nD) : Vec F S4x100000x8 .f32 := V m c main_v18
abbrev arrX (c : Dev nD) : Vec F S4x100000x8 .f32 := V m c main_arg0
abbrev arrR (c : Dev nD) : Vec F S4x100000x8 .f32 := V m c main_arg1
abbrev arrM (c : Dev nD) : Vec F S4x100000x1 .f32 := V m c main_arg5
abbrev tileA (c : Dev nD) (t : Fin cfg0.N) : Vec F S4x1000x8 .f32 := iblk m c 0 t
abbrev tileX (c : Dev nD) (t : Fin cfg0.N) : Vec F S4x1000x8 .f32 := iblk m c 1 t
abbrev tileR (c : Dev nD) (t : Fin cfg0.N) : Vec F S4x1000x8 .f32 := iblk m c 2 t
abbrev tileM (c : Dev nD) (t : Fin cfg0.N) : Vec F S4x1000x1 .f32 := iblk m c 3 t

/-- Row r of tile t of A is row 1000·t + r of A. -/
theorem tile_A (c : Dev nD) (t : Fin cfg0.N) (b : Fin 4) (r : Fin 1000) (s : Fin 8) :
    tileA m c t (ix3 b r s) = arrA m c (rowIx b (1000 * t.val + r.val) s) := by
  have hN : t.val < 100 := lt_of_lt_of_eq t.isLt (show cfg0.N = 100 from N_0)
  obtain ⟨h0, h1, h2⟩ := (tile_origin t).1
  unfold tileA arrA iblk
  rw [View.read_apply]
  show V m c main_v18 _ = V m c main_v18 _
  refine congrArg _ (funext fun a => Fin.ext ?_)
  match a with
  | ⟨0, _⟩ => show win0_0.index t 0 * 4 + 1 * b.val = b.val; rw [h0]; omega
  | ⟨1, _⟩ => show win0_0.index t 1 * 1000 + 1 * r.val = (1000 * t.val + r.val) % 100000; rw [h1]; omega
  | ⟨2, _⟩ => show win0_0.index t 2 * 8 + 1 * s.val = s.val; rw [h2]; omega

/-- Row r of tile t of X is row 1000·t + r of X. -/
theorem tile_X (c : Dev nD) (t : Fin cfg0.N) (b : Fin 4) (r : Fin 1000) (s : Fin 8) :
    tileX m c t (ix3 b r s) = arrX m c (rowIx b (1000 * t.val + r.val) s) := by
  have hN : t.val < 100 := lt_of_lt_of_eq t.isLt (show cfg0.N = 100 from N_0)
  obtain ⟨h0, h1, h2⟩ := (tile_origin t).2.1
  unfold tileX arrX iblk
  rw [View.read_apply]
  show V m c main_arg0 _ = V m c main_arg0 _
  refine congrArg _ (funext fun a => Fin.ext ?_)
  match a with
  | ⟨0, _⟩ => show win0_1.index t 0 * 4 + 1 * b.val = b.val; rw [h0]; omega
  | ⟨1, _⟩ => show win0_1.index t 1 * 1000 + 1 * r.val = (1000 * t.val + r.val) % 100000; rw [h1]; omega
  | ⟨2, _⟩ => show win0_1.index t 2 * 8 + 1 * s.val = s.val; rw [h2]; omega

/-- Row r of tile t of R is row 1000·t + r of R. -/
theorem tile_R (c : Dev nD) (t : Fin cfg0.N) (b : Fin 4) (r : Fin 1000) (s : Fin 8) :
    tileR m c t (ix3 b r s) = arrR m c (rowIx b (1000 * t.val + r.val) s) := by
  have hN : t.val < 100 := lt_of_lt_of_eq t.isLt (show cfg0.N = 100 from N_0)
  obtain ⟨h0, h1, h2⟩ := (tile_origin t).2.2.1
  unfold tileR arrR iblk
  rw [View.read_apply]
  show V m c main_arg1 _ = V m c main_arg1 _
  refine congrArg _ (funext fun a => Fin.ext ?_)
  match a with
  | ⟨0, _⟩ => show win0_2.index t 0 * 4 + 1 * b.val = b.val; rw [h0]; omega
  | ⟨1, _⟩ => show win0_2.index t 1 * 1000 + 1 * r.val = (1000 * t.val + r.val) % 100000; rw [h1]; omega
  | ⟨2, _⟩ => show win0_2.index t 2 * 8 + 1 * s.val = s.val; rw [h2]; omega

/-- Row r of tile t of M is row 1000·t + r of M. -/
theorem tile_M (c : Dev nD) (t : Fin cfg0.N) (b : Fin 4) (r : Fin 1000) (z : Fin 1) :
    tileM m c t (ix3 b r z) = arrM m c (rowIx b (1000 * t.val + r.val) z) := by
  have hN : t.val < 100 := lt_of_lt_of_eq t.isLt (show cfg0.N = 100 from N_0)
  obtain ⟨h0, h1, h2⟩ := (tile_origin t).2.2.2
  unfold tileM arrM iblk
  rw [View.read_apply]
  show V m c main_arg5 _ = V m c main_arg5 _
  refine congrArg _ (funext fun a => Fin.ext ?_)
  match a with
  | ⟨0, _⟩ => show win0_3.index t 0 * 4 + 1 * b.val = b.val; rw [h0]; omega
  | ⟨1, _⟩ => show win0_3.index t 1 * 1000 + 1 * r.val = (1000 * t.val + r.val) % 100000; rw [h1]; omega
  | ⟨2, _⟩ => show win0_3.index t 2 * 1 + 1 * z.val = z.val; rw [h2]; omega

end tiles

variable (m : (ℓ : Loc nD τ sig) → Buf (Elt Ideal) ℓ)

/-- Row k's term of E at (b, s): A(b, k, s) · X(b, k, s). -/
def termE (c : Dev nD) (b : Fin 4) (s : Fin 8) (k : ℕ) : EReal :=
  arrA m c (rowIx b k s) * arrX m c (rowIx b k s)
/-- Row k's term of L at (b, s): (M(b, k, 0) · R(b, k, s)) · X(b, k, s). -/
def termL (c : Dev nD) (b : Fin 4) (s : Fin 8) (k : ℕ) : EReal :=
  (arrM m c (rowIx b k (0 : Fin 1)) * arrR m c (rowIx b k s)) * arrX m c (rowIx b k s)
/-- Row k's term of W at (b, 0): M(b, k, 0). -/
def termW (c : Dev nD) (b : Fin 4) (z : Fin 1) (k : ℕ) : EReal :=
  arrM m c (rowIx b k z)

/-- Tile t's rows of E's terms. -/
theorem tileE (c : Dev nD) (t : Fin cfg0.N) (b : Fin 4) (s : Fin 8) :
    ∑ r : Fin 1000, tileA m c t (ix3 b r s) * tileX m c t (ix3 b r s)
      = ∑ r : Fin 1000, termE m c b s (1000 * t.val + r.val) :=
  Finset.sum_congr rfl fun r _ => congrArg₂ (· * ·) (tile_A m c t b r s) (tile_X m c t b r s)
theorem tileL (c : Dev nD) (t : Fin cfg0.N) (b : Fin 4) (s : Fin 8) :
    ∑ r : Fin 1000, (tileM m c t (ix3 b r (0 : Fin 1)) * tileR m c t (ix3 b r s)) * tileX m c t (ix3 b r s)
      = ∑ r : Fin 1000, termL m c b s (1000 * t.val + r.val) :=
  Finset.sum_congr rfl fun r _ => congrArg₂ (· * ·) (congrArg₂ (· * ·) (tile_M m c t b r 0) (tile_R m c t b r s)) (tile_X m c t b r s)
theorem tileW (c : Dev nD) (t : Fin cfg0.N) (b : Fin 4) (z : Fin 1) :
    ∑ r : Fin 1000, tileM m c t (ix3 b r z) = ∑ r : Fin 1000, termW m c b z (1000 * t.val + r.val) :=
  Finset.sum_congr rfl fun r _ => tile_M m c t b r z

/-- THE RUNNING SUMS: after step n the three blocks hold the first 1000(n+1) rows' terms, summed. -/
theorem running (c : Dev nD) : ∀ (n : ℕ) (h : n < cfg0.N),
    (∀ (b : Fin 4) (s : Fin 8), (outsAt0 m c n h).1 (ix2 b s) = ∑ k ∈ Finset.range (1000 * (n + 1)), termE m c b s k)
    ∧ (∀ (b : Fin 4) (s : Fin 8), (outsAt0 m c n h).2.1 (ix2 b s) = ∑ k ∈ Finset.range (1000 * (n + 1)), termL m c b s k)
    ∧ (∀ (b : Fin 4) (z : Fin 1), (outsAt0 m c n h).2.2 (ix2 b z) = ∑ k ∈ Finset.range (1000 * (n + 1)), termW m c b z k)
  | 0, h => by
    have hc : cond0_0 (grid0.coords (⟨0, h⟩ : Fin cfg0.N)) := (hcond0_0 (⟨0, h⟩ : Fin cfg0.N)).mpr (Nat.zero_mod _)
    rw [outsAt0_A m c (⟨0, h⟩ : Fin cfg0.N) rfl]
    refine ⟨fun b s => ?_, fun b s => ?_, fun b z => ?_⟩
    · refine (congrFun (first_E c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) hc) (ix2 b s)).trans ?_
      refine (step_E (tileA m c (⟨0, h⟩ : Fin cfg0.N)) (tileX m c (⟨0, h⟩ : Fin cfg0.N)) (k0_pay1 (F := Ideal)) b s).trans ?_
      rw [zero_E, zero_add, TileSum.range_first_tile]
      exact tileE m c (⟨0, h⟩ : Fin cfg0.N) b s
    · refine (congrFun (first_L c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) hc) (ix2 b s)).trans ?_
      refine (step_L (tileX m c (⟨0, h⟩ : Fin cfg0.N)) (tileR m c (⟨0, h⟩ : Fin cfg0.N)) (tileM m c (⟨0, h⟩ : Fin cfg0.N)) (k0_pay2 (F := Ideal)) b s).trans ?_
      rw [zero_L, zero_add, TileSum.range_first_tile]
      exact tileL m c (⟨0, h⟩ : Fin cfg0.N) b s
    · refine (congrFun (first_W c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) hc) (ix2 b z)).trans ?_
      refine (step_W (tileM m c (⟨0, h⟩ : Fin cfg0.N)) (k0_pay3 (F := Ideal)) b z).trans ?_
      rw [zero_W, zero_add, TileSum.range_first_tile]
      exact tileW m c (⟨0, h⟩ : Fin cfg0.N) b z
  | n + 1, h => by
    have hN : cfg0.N = 100 := N_0
    have hB : ¬(⟨n + 1, h⟩ : Fin cfg0.N).val % 100 = 0 := by dsimp only; omega
    have hc : ¬cond0_0 (grid0.coords (⟨n + 1, h⟩ : Fin cfg0.N)) := fun hh => hB ((hcond0_0 (⟨n + 1, h⟩ : Fin cfg0.N)).mp hh)
    obtain ⟨ihE, ihL, ihW⟩ := running c n (Nat.lt_of_succ_lt h)
    rw [outsAt0_B m c (⟨n + 1, h⟩ : Fin cfg0.N) hB]
    refine ⟨fun b s => ?_, fun b s => ?_, fun b z => ?_⟩
    · refine (congrFun (later_E c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) hc (outsAt0 m c n (Nat.lt_of_succ_lt h)).1 (outsAt0 m c n (Nat.lt_of_succ_lt h)).2.1 (outsAt0 m c n (Nat.lt_of_succ_lt h)).2.2) (ix2 b s)).trans ?_
      refine (step_E (tileA m c (⟨n + 1, h⟩ : Fin cfg0.N)) (tileX m c (⟨n + 1, h⟩ : Fin cfg0.N)) (outsAt0 m c n (Nat.lt_of_succ_lt h)).1 b s).trans ?_
      rw [TileSum.range_succ_tile]
      exact congrArg₂ (· + ·) (ihE b s) (tileE m c (⟨n + 1, h⟩ : Fin cfg0.N) b s)
    · refine (congrFun (later_L c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) hc (outsAt0 m c n (Nat.lt_of_succ_lt h)).1 (outsAt0 m c n (Nat.lt_of_succ_lt h)).2.1 (outsAt0 m c n (Nat.lt_of_succ_lt h)).2.2) (ix2 b s)).trans ?_
      refine (step_L (tileX m c (⟨n + 1, h⟩ : Fin cfg0.N)) (tileR m c (⟨n + 1, h⟩ : Fin cfg0.N)) (tileM m c (⟨n + 1, h⟩ : Fin cfg0.N)) (outsAt0 m c n (Nat.lt_of_succ_lt h)).2.1 b s).trans ?_
      rw [TileSum.range_succ_tile]
      exact congrArg₂ (· + ·) (ihL b s) (tileL m c (⟨n + 1, h⟩ : Fin cfg0.N) b s)
    · refine (congrFun (later_W c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) hc (outsAt0 m c n (Nat.lt_of_succ_lt h)).1 (outsAt0 m c n (Nat.lt_of_succ_lt h)).2.1 (outsAt0 m c n (Nat.lt_of_succ_lt h)).2.2) (ix2 b z)).trans ?_
      refine (step_W (tileM m c (⟨n + 1, h⟩ : Fin cfg0.N)) (outsAt0 m c n (Nat.lt_of_succ_lt h)).2.2 b z).trans ?_
      rw [TileSum.range_succ_tile]
      exact congrArg₂ (· + ·) (ihW b z) (tileW m c (⟨n + 1, h⟩ : Fin cfg0.N) b z)

end Cert.KernelIdeal.Acc

end
-- ==== Proof.WriteBack.lean ====
/-
  What the three result arrays hold when the region ends.

  Each output window's block index is (0, 0) at every step and its block is the whole array ([4, 8], [4, 8],
  [4, 1]), so the staged block is written back once, after the last step (step 99), and that one block covers the
  array: each result array ends holding exactly what step 99 left in its block. Over the extended reals that is,
  by the running sums at n = 99 (1000 · 100 = 100000 rows), the sum over ALL rows:
      E(b, s) = Σ_{k < 100000} A(b, k, s) · X(b, k, s),   L(b, s) = Σ_k (M(b, k, 0) · R(b, k, s)) · X(b, k, s),
      W(b, 0) = Σ_k M(b, k, 0).
  The last step is named by a variable t with t = 99, never by the numeral: what step 99 left is a 100-fold nested
  expression that nothing here needs to look inside.
-/
import proofs.«118738_j56916906606979_2_alg».proof.Proof.Running

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

/-- There is a step 99. -/
theorem exists_last : ∃ t : Fin cfg0.N, t.val = 99 := ⟨⟨99, by rw [show cfg0.N = 100 from N_0]; decide⟩, rfl⟩

/-- At every step each output window sits at block (0, 0). -/
theorem out_origin : ∀ t : Fin cfg0.N,
    (win0_4.index t 0 = 0 ∧ win0_4.index t 1 = 0) ∧ (win0_5.index t 0 = 0 ∧ win0_5.index t 1 = 0)
    ∧ (win0_6.index t 0 = 0 ∧ win0_6.index t 1 = 0) :=
  (by decide +kernel : ∀ t : Fin grid0.N, _)

section anyF
variable {F : FTy → Type} [FloatOps F] (m : (ℓ : Loc nD τ sig) → Buf (Elt F) ℓ)

/-- Whatever E's block holds, the write-back at any step writes exactly it: the window's block at (0, 0) has the
    array's own extents, so a position inside the block IS that position of the array. -/
theorem whole_block_E (t : Fin cfg0.N) (X : Vec F S4x8 .f32) :
    (cfg0.win 4).cut (grid0.coords t) X = ((cfg0.win 4).blk t).view.read (Elt F) X := by
  obtain ⟨o0, o1⟩ := (out_origin t).1
  funext j
  show X ((cfg0.win 4).xinj (grid0.coords t) j) = X (((cfg0.win 4).blk t).view.emb j)
  refine congrArg X (funext fun a => Fin.ext ?_)
  match a with
  | ⟨0, _⟩ => show (j 0).val = win0_4.index t 0 * 4 + 1 * (j 0).val; rw [o0]; omega
  | ⟨1, _⟩ => show (j 1).val = win0_4.index t 1 * 8 + 1 * (j 1).val; rw [o1]; omega

/-- An index of E's array is in step t's block iff each coordinate is in the block's range on its axis. -/
theorem mem_blk_E (t : Fin cfg0.N) (i : S4x8.Idx) :
    i ∈ ((cfg0.win 4).blk t).view.set ↔ ∀ a : Fin 2, win0_4.index t a * S4x8.size a ≤ (i a).val ∧ (i a).val < win0_4.index t a * S4x8.size a + S4x8.size a := by
  show i ∈ ((View.whole main_v19_0).slice (win0_4.rect t)).set ↔ _
  rw [View.set_slice_whole, Rect.mem_set_unit]
  exact Iff.rfl

/-- So E's array ends holding what the last step (any name t of step 99) left: that step is the one write-back,
    and its block covers the array. -/
theorem final_E (c : Dev nD) (t : Fin cfg0.N) (ht : t.val = 99) :
    (dats m 0 c).arrAt 4 cfg0.N = (outsAt0 m c t.val t.isLt).1 :=
  (dats m 0 c).arrAt_eq_of_cover 4 ((outsAt0 m c t.val t.isLt).1)
    (fun t' hf => by
      have hN : cfg0.N = 100 := N_0
      obtain rfl : t' = t := Fin.ext (by have := (flush0_4 t').mp hf; have := t'.isLt; omega)
      show (cfg0.win 4).cut (grid0.coords t') ((dats m 0 c).after 4 t') = _
      rw [after0_4]
      exact whole_block_E t' _)
    fun i =>
      ⟨t, (flush0_4 t).mpr (by rw [ht]), by
        rw [mem_blk_E]
        obtain ⟨o0, o1⟩ := (out_origin t).1
        have h0 : (i 0 : Nat) < 4 := (i 0).isLt
        have h1 : (i 1 : Nat) < 8 := (i 1).isLt
        intro a
        match a with
        | ⟨0, _⟩ => show win0_4.index t 0 * 4 ≤ (i 0).val ∧ (i 0).val < win0_4.index t 0 * 4 + 4; rw [o0]; omega
        | ⟨1, _⟩ => show win0_4.index t 1 * 8 ≤ (i 1).val ∧ (i 1).val < win0_4.index t 1 * 8 + 8; rw [o1]; omega⟩

/-- Whatever L's block holds, the write-back at any step writes exactly it: the window's block at (0, 0) has the
    array's own extents, so a position inside the block IS that position of the array. -/
theorem whole_block_L (t : Fin cfg0.N) (X : Vec F S4x8 .f32) :
    (cfg0.win 5).cut (grid0.coords t) X = ((cfg0.win 5).blk t).view.read (Elt F) X := by
  obtain ⟨o0, o1⟩ := (out_origin t).2.1
  funext j
  show X ((cfg0.win 5).xinj (grid0.coords t) j) = X (((cfg0.win 5).blk t).view.emb j)
  refine congrArg X (funext fun a => Fin.ext ?_)
  match a with
  | ⟨0, _⟩ => show (j 0).val = win0_5.index t 0 * 4 + 1 * (j 0).val; rw [o0]; omega
  | ⟨1, _⟩ => show (j 1).val = win0_5.index t 1 * 8 + 1 * (j 1).val; rw [o1]; omega

/-- An index of L's array is in step t's block iff each coordinate is in the block's range on its axis. -/
theorem mem_blk_L (t : Fin cfg0.N) (i : S4x8.Idx) :
    i ∈ ((cfg0.win 5).blk t).view.set ↔ ∀ a : Fin 2, win0_5.index t a * S4x8.size a ≤ (i a).val ∧ (i a).val < win0_5.index t a * S4x8.size a + S4x8.size a := by
  show i ∈ ((View.whole main_v19_1).slice (win0_5.rect t)).set ↔ _
  rw [View.set_slice_whole, Rect.mem_set_unit]
  exact Iff.rfl

/-- So L's array ends holding what the last step (any name t of step 99) left: that step is the one write-back,
    and its block covers the array. -/
theorem final_L (c : Dev nD) (t : Fin cfg0.N) (ht : t.val = 99) :
    (dats m 0 c).arrAt 5 cfg0.N = (outsAt0 m c t.val t.isLt).2.1 :=
  (dats m 0 c).arrAt_eq_of_cover 5 ((outsAt0 m c t.val t.isLt).2.1)
    (fun t' hf => by
      have hN : cfg0.N = 100 := N_0
      obtain rfl : t' = t := Fin.ext (by have := (flush0_5 t').mp hf; have := t'.isLt; omega)
      show (cfg0.win 5).cut (grid0.coords t') ((dats m 0 c).after 5 t') = _
      rw [after0_5]
      exact whole_block_L t' _)
    fun i =>
      ⟨t, (flush0_5 t).mpr (by rw [ht]), by
        rw [mem_blk_L]
        obtain ⟨o0, o1⟩ := (out_origin t).2.1
        have h0 : (i 0 : Nat) < 4 := (i 0).isLt
        have h1 : (i 1 : Nat) < 8 := (i 1).isLt
        intro a
        match a with
        | ⟨0, _⟩ => show win0_5.index t 0 * 4 ≤ (i 0).val ∧ (i 0).val < win0_5.index t 0 * 4 + 4; rw [o0]; omega
        | ⟨1, _⟩ => show win0_5.index t 1 * 8 ≤ (i 1).val ∧ (i 1).val < win0_5.index t 1 * 8 + 8; rw [o1]; omega⟩

/-- Whatever W's block holds, the write-back at any step writes exactly it: the window's block at (0, 0) has the
    array's own extents, so a position inside the block IS that position of the array. -/
theorem whole_block_W (t : Fin cfg0.N) (X : Vec F S4x1 .f32) :
    (cfg0.win 6).cut (grid0.coords t) X = ((cfg0.win 6).blk t).view.read (Elt F) X := by
  obtain ⟨o0, o1⟩ := (out_origin t).2.2
  funext j
  show X ((cfg0.win 6).xinj (grid0.coords t) j) = X (((cfg0.win 6).blk t).view.emb j)
  refine congrArg X (funext fun a => Fin.ext ?_)
  match a with
  | ⟨0, _⟩ => show (j 0).val = win0_6.index t 0 * 4 + 1 * (j 0).val; rw [o0]; omega
  | ⟨1, _⟩ => show (j 1).val = win0_6.index t 1 * 1 + 1 * (j 1).val; rw [o1]; omega

/-- An index of W's array is in step t's block iff each coordinate is in the block's range on its axis. -/
theorem mem_blk_W (t : Fin cfg0.N) (i : S4x1.Idx) :
    i ∈ ((cfg0.win 6).blk t).view.set ↔ ∀ a : Fin 2, win0_6.index t a * S4x1.size a ≤ (i a).val ∧ (i a).val < win0_6.index t a * S4x1.size a + S4x1.size a := by
  show i ∈ ((View.whole main_v19_2).slice (win0_6.rect t)).set ↔ _
  rw [View.set_slice_whole, Rect.mem_set_unit]
  exact Iff.rfl

/-- So W's array ends holding what the last step (any name t of step 99) left: that step is the one write-back,
    and its block covers the array. -/
theorem final_W (c : Dev nD) (t : Fin cfg0.N) (ht : t.val = 99) :
    (dats m 0 c).arrAt 6 cfg0.N = (outsAt0 m c t.val t.isLt).2.2 :=
  (dats m 0 c).arrAt_eq_of_cover 6 ((outsAt0 m c t.val t.isLt).2.2)
    (fun t' hf => by
      have hN : cfg0.N = 100 := N_0
      obtain rfl : t' = t := Fin.ext (by have := (flush0_6 t').mp hf; have := t'.isLt; omega)
      show (cfg0.win 6).cut (grid0.coords t') ((dats m 0 c).after 6 t') = _
      rw [after0_6]
      exact whole_block_W t' _)
    fun i =>
      ⟨t, (flush0_6 t).mpr (by rw [ht]), by
        rw [mem_blk_W]
        obtain ⟨o0, o1⟩ := (out_origin t).2.2
        have h0 : (i 0 : Nat) < 4 := (i 0).isLt
        have h1 : (i 1 : Nat) < 1 := (i 1).isLt
        intro a
        match a with
        | ⟨0, _⟩ => show win0_6.index t 0 * 4 ≤ (i 0).val ∧ (i 0).val < win0_6.index t 0 * 4 + 4; rw [o0]; omega
        | ⟨1, _⟩ => show win0_6.index t 1 * 1 ≤ (i 1).val ∧ (i 1).val < win0_6.index t 1 * 1 + 1; rw [o1]; omega⟩

end anyF

/-! ## Over the extended reals: the sums over all 100000 rows -/

variable (m : (ℓ : Loc nD τ sig) → Buf (Elt Ideal) ℓ)

theorem lastE_apply (c : Dev nD) (t : Fin cfg0.N) (ht : t.val = 99) (b : Fin 4) (s : Fin 8) :
    (outsAt0 m c t.val t.isLt).1 (ix2 b s) = ∑ k : Fin 100000, termE m c b s k.val :=
  ((running m c t.val t.isLt).1 b s).trans (by rw [ht]; exact TileSum.range_eq_univ _ 100000)
theorem lastL_apply (c : Dev nD) (t : Fin cfg0.N) (ht : t.val = 99) (b : Fin 4) (s : Fin 8) :
    (outsAt0 m c t.val t.isLt).2.1 (ix2 b s) = ∑ k : Fin 100000, termL m c b s k.val :=
  ((running m c t.val t.isLt).2.1 b s).trans (by rw [ht]; exact TileSum.range_eq_univ _ 100000)
theorem lastW_apply (c : Dev nD) (t : Fin cfg0.N) (ht : t.val = 99) (b : Fin 4) (z : Fin 1) :
    (outsAt0 m c t.val t.isLt).2.2 (ix2 b z) = ∑ k : Fin 100000, termW m c b z k.val :=
  ((running m c t.val t.isLt).2.2 b z).trans (by rw [ht]; exact TileSum.range_eq_univ _ 100000)

end Cert.KernelIdeal.Acc

end
-- ==== Proof.HostSides.lean ====
/-
  The two host stretches around the region, as functions.

  Before the region the program computes, from the arguments X (shape [4, 100000, 8]), the index pairs and the
  coefficients, the array A = reshape (scatter-add of coefficient · gathered rows of X): the sparse product. Both
  programs compute it by the same operations in the same order, so it is ONE function of the three arguments and is
  never opened: `spmv`.
  After the region the program combines the three blocks E, L ([4, 8]) and W ([4, 1]) into one number,
      σ = L / max(E, ε),   ½ · (−mean(σ · L / W)) + ½ · mean((½ · E · σ − L) · σ / W),
  (ε, ½ and the 32 of the means the constants the two programs share): `scalarTail`, again one function, never
  opened.
-/
import proofs.«118738_j56916906606979_2_alg».proof.Proof.WriteBack
import proofs.«118738_j56916906606979_2_alg».proof.Proof.Gen.ReferenceIdeal.Read
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Acc

open Cert.KernelIdeal Cert.KernelIdeal.Gen

variable {F : FTy → Type} [FloatOps F]

/-- What both programs make of the three sums. -/
def scalarTail (E L : FVec F S4x8 .f32) (W : FVec F S4x1 .f32) : FVec F S_ .f32 :=
  let σ : FVec F S4x8 .f32 := Host.divf L (maximumf E (broadcastInDim S4x8 ![] bcast_S_S4x8 (constant S_ .f32 0x38D1B717#32)))
  let Wb : FVec F S4x8 .f32 := broadcastInDim S4x8 ![0, 1] bcast_S4x1_S4x8_0_1 W
  let kkt : FVec F S_ .f32 := Host.divf (Host.reduceAdd (Host.divf (mulf (subf (mulf (mulf (broadcastInDim S4x8 ![] bcast_S_S4x8
      (constant S_ .f32 0x3F000000#32)) E) σ) L) σ) Wb) (constant S_ .f32 0x00000000#32) reducesTo_S4x8_S_d0_1 h_S_)
      (constant S_ .f32 0x42000000#32)
  let comp : FVec F S_ .f32 := Host.negf (Host.divf (Host.reduceAdd (Host.divf (mulf σ L) Wb) (constant S_ .f32 0x00000000#32)
      reducesTo_S4x8_S_d0_1 h_S_) (constant S_ .f32 0x42000000#32))
  addf (mulf (constant S_ .f32 0x3F000000#32) comp) (mulf (constant S_ .f32 0x3F000000#32) kkt)

/-- The host operations after the region compute `scalarTail` of the three result arrays, whatever else memory holds. -/
theorem tail_of (Vw : Valuation τ sig (Elt F)) :
    StableHlo.after hostOps1 Vw (Proc.devRef .tc main_v40)
      = scalarTail (F := F) (Vw (Proc.devRef .tc main_v19_0)) (Vw (Proc.devRef .tc main_v19_1)) (Vw (Proc.devRef .tc main_v19_2)) := by
  after_results_simp
  rfl

variable (m : (ℓ : Loc nD τ sig) → Buf (Elt F) ℓ) (ρ : Dev nD → PrngReg)

/-- THE SPARSE PRODUCT. The array the first window tiles is what the 22 host operations before the region make of the
    arguments — the same operations, in the same order, as the reference's: one function of X, the index pairs
    and the coefficients. -/
theorem arrA_eq (c : Dev nD) :
    arrA m c = Cert.ReferenceIdeal.Read.val_main_v21 (F := F) (m ((c : Thread nD τ).loc main_arg0))
      (m ((c : Thread nD τ).loc main_arg2)) (m ((c : Thread nD τ).loc main_arg3)) := by
  show StableHlo.after hostOps0 (fun b => m (c, b)) (Proc.devRef .tc main_v18) = _
  after_results_simp
  rfl

/-- The other three tiled arrays are arguments, which no host operation before the region writes. -/
theorem arrX_eq (c : Dev nD) : arrX m c = m ((c : Thread nD τ).loc main_arg0) := V_main_arg0 m c
theorem arrR_eq (c : Dev nD) : arrR m c = m ((c : Thread nD τ).loc main_arg1) := V_main_arg1 m c
theorem arrM_eq (c : Dev nD) : arrM m c = m ((c : Thread nD τ).loc main_arg5) := V_main_arg5 m c

/-- What the host operations after the region leave in the result: `scalarTail` of what the last step (t = 99) left in
    the three blocks — the three result arrays are those blocks (the write-back), and the tail reads nothing else. -/
theorem tail_value (c : Dev nD) (t : Fin cfg0.N) (ht : t.val = 99) :
    Pipeline.afterTail₀ cfgs (dats m) 0 (V0 m) [hostOps1] c main_v40
      = scalarTail (F := F) (outsAt0 m c t.val t.isLt).1 (outsAt0 m c t.val t.isLt).2.1 (outsAt0 m c t.val t.isLt).2.2 := by
  unfold Pipeline.afterTail₀
  show StableHlo.after hostOps1 _ (Proc.devRef .tc main_v40) = _
  rw [tail_of]
  refine congr (congr (congrArg (scalarTail (F := F)) ?_) ?_) ?_
  · exact (Pipeline.withArrays_arr spec0 launch0.win.arr_inj c _ _ 4).trans (final_E m c t ht)
  · exact (Pipeline.withArrays_arr spec0 launch0.win.arr_inj c _ _ 5).trans (final_L m c t ht)
  · exact (Pipeline.withArrays_arr spec0 launch0.win.arr_inj c _ _ 6).trans (final_W m c t ht)

/-- THE KERNEL'S RUN, READ: every weakly fair execution terminates with the result at `scalarTail` of the last step's
    three blocks and the six arguments unchanged. -/
theorem kernel_run (t : Fin cfg0.N) (ht : t.val = 99) :
    θ_run defs (onTc (τ := τ) (main (F := F))) ⟨m, fun _ => 0, ρ⟩ fun r => ∀ c : Dev nD,
      r.2.mem ((c : Thread nD τ).loc main_v40)
        = scalarTail (F := F) (outsAt0 m c t.val t.isLt).1 (outsAt0 m c t.val t.isLt).2.1 (outsAt0 m c t.val t.isLt).2.2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v40 (Pipeline.mem_restRefs_of main_v40 (by decide) (by decide))).trans (tail_value m c t ht),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c)))⟩)
    (run_main m ρ)

end Cert.KernelIdeal.Acc

end
-- ==== Proof.Bridge.lean ====
/-
  The kernel's three blocks are the reference's three sums.

  The reference forms the same three quantities with one host sum each over all 100000 rows, started from zero:
      0 + Σ_k A(b, k, s) · X(b, k, s),   0 + Σ_k (M(b, k, 0) · R(b, k, s)) · X(b, k, s),   0 + Σ_k M(b, k, 0)
  (its A the same function of the arguments as the kernel's, its broadcast of M along the last axis reading column 0).
  The kernel's blocks after the last step are the same sums over all rows; 0 + y = y on the extended reals. The terms
  agree factor by factor in the same order, so no law of multiplication is used, and of addition only that sums over
  the rows may be taken a tile at a time. Hence the two results, `scalarTail` of equal triples, are equal.
-/
import proofs.«118738_j56916906606979_2_alg».proof.Proof.HostSides

noncomputable section

open Idealize.ShloMosaic Idealize.ShloMosaic.TcCoe Idealize.SL.Sem Idealize.ShloMosaic.ValueIdx

namespace Cert.KernelIdeal.Acc

open Cert.KernelIdeal Cert.KernelIdeal.Gen Cert.ReferenceIdeal.Read

/-! ## The reference's row indices are rows b, k, s -/

theorem refRow8 (b : Fin 4) (s : Fin 8) (k : Fin 100000) : idx_main_v23 (ix2 b s) k = rowIx b k.val s :=
  funext fun a => Fin.ext (by
    match a with
    | ⟨0, _⟩ => rfl
    | ⟨1, _⟩ => exact (Nat.mod_eq_of_lt k.isLt).symm
    | ⟨2, _⟩ => rfl)
theorem refRow8' (b : Fin 4) (s : Fin 8) (k : Fin 100000) : idx_main_v25 (ix2 b s) k = rowIx b k.val s :=
  funext fun a => Fin.ext (by
    match a with
    | ⟨0, _⟩ => rfl
    | ⟨1, _⟩ => exact (Nat.mod_eq_of_lt k.isLt).symm
    | ⟨2, _⟩ => rfl)
theorem refRow1 (b : Fin 4) (z : Fin 1) (k : Fin 100000) : idx_main_v2 (ix2 b z) k = rowIx b k.val z :=
  funext fun a => Fin.ext (by
    match a with
    | ⟨0, _⟩ => rfl
    | ⟨1, _⟩ => exact (Nat.mod_eq_of_lt k.isLt).symm
    | ⟨2, _⟩ => rfl)
/-- The reference's broadcast of M along the last axis reads column 0. -/
theorem refCol (b : Fin 4) (n : ℕ) (s : Fin 8) : idx_main_v0 (rowIx b n s) = rowIx b n (0 : Fin 1) :=
  funext fun a => Fin.ext (by
    match a with
    | ⟨0, _⟩ => rfl
    | ⟨1, _⟩ => rfl
    | ⟨2, _⟩ => rfl)

variable (m : (ℓ : Loc nD τ sig) → Buf (Elt Ideal) ℓ)

/-! ## The three blocks -/

/-- E after the last step is the reference's first sum. -/
theorem E_eq (c : Dev nD) (t : Fin cfg0.N) (ht : t.val = 99) :
    ((outsAt0 m c t.val t.isLt).1 : Vec Ideal S4x8 .f32)
      = val_main_v23 (F := Ideal) (m ((c : Thread nD τ).loc main_arg0)) (m ((c : Thread nD τ).loc main_arg2)) (m ((c : Thread nD τ).loc main_arg3)) := by
  funext j
  obtain ⟨b, s, rfl⟩ : ∃ (b : Fin 4) (s : Fin 8), j = ix2 b s := ⟨j 0, j 1, eq_ix2 j⟩
  refine (lastE_apply m c t ht b s).trans (Eq.symm ((val_main_v23_apply _ _ _ (ix2 b s)).trans ?_))
  refine (congrArg (· + _) (Ideal.ofBits_zero_f32 : val_main_cst_2 (F := Ideal) _ = 0)).trans ((zero_add _).trans ?_)
  refine Finset.sum_congr rfl fun k _ => ?_
  rw [refRow8]
  unfold termE
  rw [arrA_eq, arrX_eq]
  exact (val_main_v22_apply _ _ _ _).trans (Ideal.mulf_def _ _)

/-- L after the last step is the reference's second sum. -/
theorem L_eq (c : Dev nD) (t : Fin cfg0.N) (ht : t.val = 99) :
    ((outsAt0 m c t.val t.isLt).2.1 : Vec Ideal S4x8 .f32)
      = val_main_v25 (F := Ideal) (m ((c : Thread nD τ).loc main_arg0)) (m ((c : Thread nD τ).loc main_arg1)) (m ((c : Thread nD τ).loc main_arg5)) := by
  funext j
  obtain ⟨b, s, rfl⟩ : ∃ (b : Fin 4) (s : Fin 8), j = ix2 b s := ⟨j 0, j 1, eq_ix2 j⟩
  refine (lastL_apply m c t ht b s).trans (Eq.symm ((val_main_v25_apply _ _ _ (ix2 b s)).trans ?_))
  refine (congrArg (· + _) (Ideal.ofBits_zero_f32 : val_main_cst_3 (F := Ideal) _ = 0)).trans ((zero_add _).trans ?_)
  refine Finset.sum_congr rfl fun k _ => ?_
  rw [refRow8']
  unfold termL
  rw [arrM_eq, arrR_eq, arrX_eq]
  refine ((val_main_v24_apply _ _ _ _).trans (Ideal.mulf_def _ _)).trans (congrArg (· * _) ?_)
  refine ((val_main_v1_apply _ _ _).trans (Ideal.mulf_def _ _)).trans (congrArg (· * _) ?_)
  exact (val_main_v0_apply _ _).trans (congrArg _ (refCol b k.val s))

/-- W after the last step is the reference's third sum. -/
theorem W_eq (c : Dev nD) (t : Fin cfg0.N) (ht : t.val = 99) :
    ((outsAt0 m c t.val t.isLt).2.2 : Vec Ideal S4x1 .f32) = val_main_v2 (F := Ideal) (m ((c : Thread nD τ).loc main_arg5)) := by
  funext j
  obtain ⟨b, z, rfl⟩ : ∃ (b : Fin 4) (z : Fin 1), j = ix2 b z := ⟨j 0, j 1, eq_ix2 j⟩
  refine (lastW_apply m c t ht b z).trans (Eq.symm ((val_main_v2_apply _ (ix2 b z)).trans ?_))
  refine (congrArg (· + _) (Ideal.ofBits_zero_f32 : val_main_cst (F := Ideal) _ = 0)).trans ((zero_add _).trans ?_)
  refine Finset.sum_congr rfl fun k _ => ?_
  rw [refRow1]
  unfold termW
  rw [arrM_eq]

/-! ## The two results -/

/-- The reference's result is `scalarTail` of its three sums: after them it runs the kernel's own last operations. -/
theorem ref_tail {F : FTy → Type} [FloatOps F] (x0 x1 : FVec F S4x100000x8 .f32) (x2 : IVec S2x12800000 32) (x3 : FVec F S12800000 .f32)
    (x5 : FVec F S4x100000x1 .f32) :
    val_main_v46 (F := F) x0 x1 x2 x3 x5
      = scalarTail (F := F) (val_main_v23 (F := F) x0 x2 x3) (val_main_v25 (F := F) x0 x1 x5) (val_main_v2 (F := F) x5) := rfl

/-- THE TWO RESULTS ARE EQUAL: the kernel's, `scalarTail` of the last step's blocks, is the reference's stage-by-stage value
    of the same arguments. -/
theorem result_eq (c : Dev nD) (t : Fin cfg0.N) (ht : t.val = 99) :
    scalarTail (F := Ideal) (outsAt0 m c t.val t.isLt).1 (outsAt0 m c t.val t.isLt).2.1 (outsAt0 m c t.val t.isLt).2.2
      = val_main_v46 (F := Ideal) (m ((c : Thread nD τ).loc main_arg0)) (m ((c : Thread nD τ).loc main_arg1))
          (m ((c : Thread nD τ).loc main_arg2)) (m ((c : Thread nD τ).loc main_arg3)) (m ((c : Thread nD τ).loc main_arg5)) :=
  (congr (congr (congrArg (scalarTail (F := Ideal)) (E_eq m c t ht)) (L_eq m c t ht)) (W_eq m c t ht)).trans (ref_tail _ _ _ _ _).symm

end Cert.KernelIdeal.Acc

end
-- ==== Proof.lean ====
/-
  A tiled reduction equals the whole reduction.

  Both programs compute, from X, R of shape [4, 100000, 8], M of shape [4, 100000, 1] and a sparse matrix given by
  index pairs and coefficients, the array A = (sparse matrix) · X by the same host operations, then the three sums
  over the 100000 rows
      E(b, s) = Σ_k A(b, k, s) · X(b, k, s),   L(b, s) = Σ_k (M(b, k, 0) · R(b, k, s)) · X(b, k, s),   W(b) = Σ_k M(b, k, 0),
  and from them one number by the same last operations (σ = L / max(E, ε); the half-sum of −mean(σ·L/W) and
  mean((½·E·σ − L)·σ/W)). They differ in how the sums are taken: the reference in one host reduction each, started
  from zero; the kernel in 100 grid steps over tiles of 1000 rows, each step adding its tile's sum to three blocks
  that stay in place across the grid, are zeroed at the first step and are written back once after the last.

  Over the extended reals the two agree because a sum over 100000 rows may be taken 1000 rows at a time (only
  associativity, so nothing has to be finite) and 0 + y = y. The modules, in order:
    LibTileSum the sum over the first B(n+1) naturals, B at a time;
    Pieces     what one step leaves in each block, as a function of its tiles and the block's old contents;
    StepValue  those functions read entry by entry;
    Running    the blocks after step n are the sums over the first 1000(n+1) rows (induction on n);
    WriteBack  the result arrays end holding what the last step left: the sums over all rows;
    HostSides  the host operations before and after the region as two functions; the kernel's run read through them;
    Bridge     the three blocks are the reference's three sums, so the two results are equal.
  The three frame claims are the generated frame runs; the idealization rewrote nothing, so it is preserved trivially.
-/
import proofs.«118738_j56916906606979_2_alg».proof.Defs
import proofs.«118738_j56916906606979_2_alg».proof.Proof.Gen.Kernel
import proofs.«118738_j56916906606979_2_alg».proof.Proof.Gen.Kernel.Skeleton
import proofs.«118738_j56916906606979_2_alg».proof.Proof.Gen.Kernel.Launch
import proofs.«118738_j56916906606979_2_alg».proof.Proof.Gen.Kernel.Points
import proofs.«118738_j56916906606979_2_alg».proof.Proof.Gen.Kernel.Frame
import proofs.«118738_j56916906606979_2_alg».proof.Proof.Gen.KernelIdeal
import proofs.«118738_j56916906606979_2_alg».proof.Proof.Gen.KernelIdeal.Skeleton
import proofs.«118738_j56916906606979_2_alg».proof.Proof.Gen.KernelIdeal.Launch
import proofs.«118738_j56916906606979_2_alg».proof.Proof.Gen.KernelIdeal.Points
import proofs.«118738_j56916906606979_2_alg».proof.Proof.Gen.KernelIdeal.Frame
import proofs.«118738_j56916906606979_2_alg».proof.Proof.Gen.ReferenceIdeal
import proofs.«118738_j56916906606979_2_alg».proof.Proof.Gen.Pre_finite_inputs
import proofs.«118738_j56916906606979_2_alg».proof.Proof.Gen.ReferenceIdeal.Run
import proofs.«118738_j56916906606979_2_alg».proof.Proof.Gen.ReferenceIdeal.Read
import proofs.«118738_j56916906606979_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel and its idealization run, nothing faulting, the arguments unchanged: the generated frame runs. -/
theorem frame_k : Cert.frame_Kernel := fun m ρ _ => Cert.Kernel.Gen.frame m ρ
theorem frame_ki : Cert.frame_KernelIdeal := fun m ρ _ => Cert.KernelIdeal.Gen.frame m ρ
/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the reference's stage-by-stage value of those arguments:
    the reference by its generated run, the kernel because its three blocks are the reference's three sums. No entry of
    the inputs needs to be finite. -/
theorem algebraic : Cert.algebraic_KernelIdeal_ReferenceIdeal := by
  intro m ρ m' ρ' _ hagree
  obtain ⟨t, ht⟩ := Cert.KernelIdeal.Acc.exists_last
  refine ⟨fun c => Cert.ReferenceIdeal.Read.val_main_v46 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Acc.result_eq m c t ht), (h c).2⟩)
      (Cert.KernelIdeal.Acc.kernel_run (F := Ideal) m ρ t ht)
  · refine (θ_run Cert.ReferenceIdeal.defs _ _).mono (fun _ h c => ⟨((h c).1.trans (Cert.ReferenceIdeal.Read.val_main_v46_eq m' c)).trans ?_, (h c).2⟩)
      (Cert.ReferenceIdeal.Value.run (F := Ideal) m' ρ')
    rw [(hagree c).1, (hagree c).2.1, (hagree c).2.2.1, (hagree c).2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
